-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x768 : Shape := ⟨3, ![16, 4096, 768]⟩
abbrev S16x4096 : Shape := ⟨2, ![16, 4096]⟩
abbrev S64x768 : Shape := ⟨2, ![64, 768]⟩
abbrev S_ : Shape := ⟨0, ![]⟩

class Facts : Prop where
  bcast_S_S16x4096x768 : S_.BroadcastsInDim S16x4096x768 (![] : Fin 0 → Fin S16x4096x768.rank)
  reducesTo_S16x4096x768_S_d0_1_2 : S16x4096x768.ReducesTo [0, 1, 2] S_
  h_S_ : 0 < S_.numel
  bcast_S_S16x4096 : S_.BroadcastsInDim S16x4096 (![] : Fin 0 → Fin S16x4096.rank)
  reducesTo_S16x4096_S_d0_1 : S16x4096.ReducesTo [0, 1] S_
  bcast_S_S64x768 : S_.BroadcastsInDim S64x768 (![] : Fin 0 → Fin S64x768.rank)
  reducesTo_S64x768_S_d0_1 : S64x768.ReducesTo [0, 1] S_

variable [Facts]

def fn {F : FTy → Type} [FloatOps F] (main_arg0 : FVec F S16x4096x768 .f32) (main_arg1 : FVec F S16x4096 .f32) (main_arg2 : FVec F S64x768 .f32) : IVec S_ 1 :=
  let main_v0 : FVec F S16x4096x768 .f32 := Host.absf main_arg0
  let main_cst : FVec F S_ .f32 := constant S_ .f32 0x7F800000#32
  let main_v1 : FVec F S16x4096x768 .f32 := broadcastInDim S16x4096x768 ![] bcast_S_S16x4096x768 main_cst
  let main_v2 : IVec S16x4096x768 1 := cmpf .olt main_v0 main_v1
  let main_c : IVec S_ 1 := constantI S_ 1 1#1
  let main_v3 : IVec S_ 1 := (fun x v => Host.reduce IntOp.andi x v reducesTo_S16x4096x768_S_d0_1_2 h_S_) main_v2 main_c
  let main_v4 : FVec F S16x4096 .f32 := Host.absf main_arg1
  let main_cst_0 : FVec F S_ .f32 := constant S_ .f32 0x7F800000#32
  let main_v5 : FVec F S16x4096 .f32 := broadcastInDim S16x4096 ![] bcast_S_S16x4096 main_cst_0
  let main_v6 : IVec S16x4096 1 := cmpf .olt main_v4 main_v5
  let main_c_1 : IVec S_ 1 := constantI S_ 1 1#1
  let main_v7 : IVec S_ 1 := (fun x v => Host.reduce IntOp.andi x v reducesTo_S16x4096_S_d0_1 h_S_) main_v6 main_c_1
  let main_v8 : IVec S_ 1 := andi main_v3 main_v7
  let main_v9 : FVec F S64x768 .f32 := Host.absf main_arg2
  let main_cst_2 : FVec F S_ .f32 := constant S_ .f32 0x7F800000#32
  let main_v10 : FVec F S64x768 .f32 := broadcastInDim S64x768 ![] bcast_S_S64x768 main_cst_2
  let main_v11 : IVec S64x768 1 := cmpf .olt main_v9 main_v10
  let main_c_3 : IVec S_ 1 := constantI S_ 1 1#1
  let main_v12 : IVec S_ 1 := (fun x v => Host.reduce IntOp.andi x v reducesTo_S64x768_S_d0_1 h_S_) main_v11 main_c_3
  let main_v13 : IVec S_ 1 := andi main_v8 main_v12
  main_v13
-- ==== Kernel.lean ====
abbrev S16x4096x768 : Shape := ⟨3, ![16, 4096, 768]⟩
abbrev S16x4096 : Shape := ⟨2, ![16, 4096]⟩
abbrev S64x768 : Shape := ⟨2, ![64, 768]⟩
abbrev S16x1x4096 : Shape := ⟨3, ![16, 1, 4096]⟩
abbrev S16x64x768 : Shape := ⟨3, ![16, 64, 768]⟩
abbrev S1x4096x768 : Shape := ⟨3, ![1, 4096, 768]⟩
abbrev S1x1x4096 : Shape := ⟨3, ![1, 1, 4096]⟩
abbrev S1x64x768 : Shape := ⟨3, ![1, 64, 768]⟩
abbrev S4096x768 : Shape := ⟨2, ![4096, 768]⟩
abbrev S1x4096 : Shape := ⟨2, ![1, 4096]⟩
abbrev S64x4096 : Shape := ⟨2, ![64, 4096]⟩
abbrev S64 : Shape := ⟨1, ![64]⟩
abbrev S64x1 : Shape := ⟨2, ![64, 1]⟩

abbrev nBuf : Space → Nat
  | .hbm => 5
  | .vmem => 7
  | .smem => 0
  | _ => 0

abbrev bufTy : (tb : Table) → Fin (tcTables nBuf tb) → BufTy
  | .hbm, ⟨0, _⟩ => ⟨S16x4096x768, .f32⟩
  | .hbm, ⟨1, _⟩ => ⟨S16x4096, .f32⟩
  | .hbm, ⟨2, _⟩ => ⟨S64x768, .f32⟩
  | .hbm, ⟨3, _⟩ => ⟨S16x1x4096, .f32⟩
  | .hbm, ⟨4, _⟩ => ⟨S16x64x768, .f32⟩
  | .local _ .vmem, ⟨0, _⟩ => ⟨S64x768, .f32⟩
  | .local _ .vmem, ⟨1, _⟩ => ⟨S1x4096x768, .f32⟩
  | .local _ .vmem, ⟨2, _⟩ => ⟨S1x4096x768, .f32⟩
  | .local _ .vmem, ⟨3, _⟩ => ⟨S1x1x4096, .f32⟩
  | .local _ .vmem, ⟨4, _⟩ => ⟨S1x1x4096, .f32⟩
  | .local _ .vmem, ⟨5, _⟩ => ⟨S1x64x768, .f32⟩
  | .local _ .vmem, ⟨6, _⟩ => ⟨S1x64x768, .f32⟩
  | _, _ => ⟨S16x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S64x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4096x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16x4096_S16x1x4096 : S16x4096.ShapeCasts S16x1x4096
  inb_S64x768_S64x768_0_0 : ∀ a, (![0, 0] : Fin 2 → Nat) a + S64x768.size a ≤ S64x768.size a
  h_S64x768 : 0 < S64x768.numel
  inb_S1x4096x768_S1x4096x768_0_0_0 : ∀ a, (![0, 0, 0] : Fin 3 → Nat) a + S1x4096x768.size a ≤ S1x4096x768.size a
  h_S1x4096x768 : 0 < S1x4096x768.numel
  shapeCasts_S1x4096x768_S4096x768 : S1x4096x768.ShapeCasts S4096x768
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  broadcasts_S1x4096_S64x4096 : S1x4096.Broadcasts S64x4096
  reduces_S64x4096_S64 : S64x4096.Reduces [1] S64
  shapeCasts_S64_S64x1 : S64.ShapeCasts S64x1
  broadcasts_S64x1_S64x4096 : S64x1.Broadcasts S64x4096
  broadcasts_S64x1_S64x768 : S64x1.Broadcasts S64x768
  inb_S1x64x768_S1x64x768_0_0_0 : ∀ a, (![0, 0, 0] : Fin 3 → Nat) a + S1x64x768.size a ≤ S1x64x768.size a
  h_S1x64x768 : 0 < S1x64x768.numel
  shapeCasts_S1x64x768_S64x768 : S1x64x768.ShapeCasts S64x768
  shapeCasts_S64x768_S1x64x768 : S64x768.ShapeCasts S1x64x768
  dot_S64x768_S4096x768_S64x4096_1_1_0_0_n_n_wf : DotDims.WF S64x768 S4096x768 S64x4096 [1] [1] [0] [0] [] []
  dot_S64x4096_S4096x768_S64x768_1_0_0_1_n_n_wf : DotDims.WF S64x4096 S4096x768 S64x768 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x768.size a ≤ S64x768.size a
  hwx0_0 : ∀ i : grid0.Coords, EltTy.bits .f32 = 32 ∨ (Rect.block (s := S64x768) S64x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x768.size a ≤ S16x4096x768.size a
  hwx0_1 : ∀ i : grid0.Coords, EltTy.bits .f32 = 32 ∨ (Rect.block (s := S16x4096x768) S1x4096x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x4096.size a ≤ S16x1x4096.size a
  hwx0_2 : ∀ i : grid0.Coords, EltTy.bits .f32 = 32 ∨ (Rect.block (s := S16x1x4096) S1x1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x768.size a ≤ S16x64x768.size a
  hwx0_3 : ∀ i : grid0.Coords, EltTy.bits .f32 = 32 ∨ (Rect.block (s := S16x64x768) S1x64x768.size (cc0_transform_3 i) (hinb0_3 i)).WholeWords (EltTy.packing .f32)

variable [Facts₀]

def dot_S64x768_S4096x768_S64x4096_1_1_0_0_n_n : DotDims S64x768 S4096x768 S64x4096 where
  lhsContracting := [1]
  rhsContracting := [1]
  lhsNonContracting := [0]
  rhsNonContracting := [0]
  lhsBatch := []
  rhsBatch := []
  wf := dot_S64x768_S4096x768_S64x4096_1_1_0_0_n_n_wf
def dot_S64x4096_S4096x768_S64x768_1_0_0_1_n_n : DotDims S64x4096 S4096x768 S64x768 where
  lhsContracting := [1]
  rhsContracting := [0]
  lhsNonContracting := [0]
  rhsNonContracting := [1]
  lhsBatch := []
  rhsBatch := []
  wf := dot_S64x4096_S4096x768_S64x768_1_0_0_1_n_n_wf

abbrev win0_0 : Pipeline.Window sig grid0 :=
  Pipeline.Window.ofSpec (Memref.whole main_arg2) S64x768.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x4096x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x1x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x4096x768 : Shape := ⟨3, ![16, 4096, 768]⟩
abbrev S16x4096 : Shape := ⟨2, ![16, 4096]⟩
abbrev S64x768 : Shape := ⟨2, ![64, 768]⟩
abbrev S16x4096x64 : Shape := ⟨3, ![16, 4096, 64]⟩
abbrev S16x64x4096 : Shape := ⟨3, ![16, 64, 4096]⟩
abbrev S_ : Shape := ⟨0, ![]⟩
abbrev S16x1x4096 : Shape := ⟨3, ![16, 1, 4096]⟩
abbrev S16x64 : Shape := ⟨2, ![16, 64]⟩
abbrev S16x64x1 : Shape := ⟨3, ![16, 64, 1]⟩
abbrev S16x64x768 : Shape := ⟨3, ![16, 64, 768]⟩

abbrev nBuf : Space → Nat
  | .hbm => 29
  | .vmem => 0
  | .smem => 0
  | _ => 0

abbrev bufTy : (tb : Table) → Fin (tcTables nBuf tb) → BufTy
  | .hbm, ⟨0, _⟩ => ⟨S16x4096x768, .f32⟩
  | .hbm, ⟨1, _⟩ => ⟨S16x4096, .f32⟩
  | .hbm, ⟨2, _⟩ => ⟨S64x768, .f32⟩
  | .hbm, ⟨3, _⟩ => ⟨S16x4096x64, .f32⟩
  | .hbm, ⟨4, _⟩ => ⟨S16x64x4096, .f32⟩
  | .hbm, ⟨5, _⟩ => ⟨S_, .f32⟩
  | .hbm, ⟨6, _⟩ => ⟨S16x4096, .f32⟩
  | .hbm, ⟨7, _⟩ => ⟨S16x4096, .f32⟩
  | .hbm, ⟨8, _⟩ => ⟨S16x1x4096, .f32⟩
  | .hbm, ⟨9, _⟩ => ⟨S_, .f32⟩
  | .hbm, ⟨10, _⟩ => ⟨S16x1x4096, .f32⟩
  | .hbm, ⟨11, _⟩ => ⟨S16x1x4096, .f32⟩
  | .hbm, ⟨12, _⟩ => ⟨S16x64x4096, .f32⟩
  | .hbm, ⟨13, _⟩ => ⟨S16x64x4096, .f32⟩
  | .hbm, ⟨14, _⟩ => ⟨S_, .f32⟩
  | .hbm, ⟨15, _⟩ => ⟨S16x64, .f32⟩
  | .hbm, ⟨16, _⟩ => ⟨S_, .f32⟩
  | .hbm, ⟨17, _⟩ => ⟨S16x64, .f32⟩
  | .hbm, ⟨18, _⟩ => ⟨S16x64, .f32⟩
  | .hbm, ⟨19, _⟩ => ⟨S16x64x1, .f32⟩
  | .hbm, ⟨20, _⟩ => ⟨S16x64x4096, .f32⟩
  | .hbm, ⟨21, _⟩ => ⟨S16x64x4096, .f32⟩
  | .hbm, ⟨22, _⟩ => ⟨S16x64x4096, .f32⟩
  | .hbm, ⟨23, _⟩ => ⟨S_, .f32⟩
  | .hbm, ⟨24, _⟩ => ⟨S16x64, .f32⟩
  | .hbm, ⟨25, _⟩ => ⟨S16x64x1, .f32⟩
  | .hbm, ⟨26, _⟩ => ⟨S16x64x4096, .f32⟩
  | .hbm, ⟨27, _⟩ => ⟨S16x64x4096, .f32⟩
  | .hbm, ⟨28, _⟩ => ⟨S16x64x768, .f32⟩
  | _, _ => ⟨S16x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  transposes_S16x4096x64_S16x64x4096_0_2_1 : S16x4096x64.Transposes [0, 2, 1] S16x64x4096
  bcast_S_S16x4096 : S_.BroadcastsInDim S16x4096 (![] : Fin 0 → Fin S16x4096.rank)
  bcast_S16x4096_S16x1x4096_0_2 : S16x4096.BroadcastsInDim S16x1x4096 (![0, 2] : Fin 2 → Fin S16x1x4096.rank)
  bcast_S_S16x1x4096 : S_.BroadcastsInDim S16x1x4096 (![] : Fin 0 → Fin S16x1x4096.rank)
  bcast_S16x1x4096_S16x64x4096_0_1_2 : S16x1x4096.BroadcastsInDim S16x64x4096 (![0, 1, 2] : Fin 3 → Fin S16x64x4096.rank)
  reducesTo_S16x64x4096_S16x64_d2 : S16x64x4096.ReducesTo [2] S16x64
  h_S_ : 0 < S_.numel
  bcast_S_S16x64 : S_.BroadcastsInDim S16x64 (![] : Fin 0 → Fin S16x64.rank)
  bcast_S16x64_S16x64x1_0_1 : S16x64.BroadcastsInDim S16x64x1 (![0, 1] : Fin 2 → Fin S16x64x1.rank)
  bcast_S16x64x1_S16x64x4096_0_1_2 : S16x64x1.BroadcastsInDim S16x64x4096 (![0, 1, 2] : Fin 3 → Fin S16x64x4096.rank)
  dot_S16x4096x768_S64x768_S16x4096x64_2_1_01_0_n_n_wf : DotDims.WF S16x4096x768 S64x768 S16x4096x64 [2] [1] [0, 1] [0] [] []
  dot_S16x64x4096_S16x4096x768_S16x64x768_2_1_1_2_0_0_wf : DotDims.WF S16x64x4096 S16x4096x768 S16x64x768 [2] [1] [1] [2] [0] [0]

variable [Facts₀]

def dot_S16x4096x768_S64x768_S16x4096x64_2_1_01_0_n_n : DotDims S16x4096x768 S64x768 S16x4096x64 where
  lhsContracting := [2]
  rhsContracting := [1]
  lhsNonContracting := [0, 1]
  rhsNonContracting := [0]
  lhsBatch := []
  rhsBatch := []
  wf := dot_S16x4096x768_S64x768_S16x4096x64_2_1_01_0_n_n_wf
def dot_S16x64x4096_S16x4096x768_S16x64x768_2_1_1_2_0_0 : DotDims S16x64x4096 S16x4096x768 S16x64x768 where
  lhsContracting := [2]
  rhsContracting := [1]
  lhsNonContracting := [1]
  rhsNonContracting := [2]
  lhsBatch := [0]
  rhsBatch := [0]
  wf := dot_S16x64x4096_S16x4096x768_S16x64x768_2_1_1_2_0_0_wf

class Facts : Prop extends Facts₀ where

variable [Facts]
-- ==== Proof.PoolLaw.lean ====
/-
  Softmax pooling of one query row over a sequence, over the extended reals: the scores, their maximum, the
  exponential weights, and the two ways of normalising the weighted sum of a column — dividing the weighted sum by
  the total weight, or summing the column against weights divided by the total one by one. When every score and every
  column entry is a real number the two agree: the maximum of finitely many reals is real, each weight is the real
  exponential of a real, the total weight is a positive real, and division by it is multiplication by its real
  reciprocal, which distributes over a finite sum of reals.
-/
import Idealize.ShloMosaic.PureOps.Ideal
import Idealize.ShloMosaic.PureOps.Ideal.Laws
import Idealize.ShloMosaic.Lib.ValueIdx

noncomputable section

namespace Cert.Pool

open Idealize.ShloMosaic

/-- The coercion of the reals into the extended reals commutes with a finite sum. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

variable {κ σ : Type} [Fintype κ] [Fintype σ]

/-- The masked score of one query row `Q` against position `s` of a sequence `C`: their inner product plus
    `(one - Mk s) * neg`, the additive mask. -/
def score (one neg : EReal) (Q : κ → EReal) (C : σ → κ → EReal) (Mk : σ → EReal) (s : σ) : EReal :=
  (∑ k, Q k * C s k) + (one - Mk s) * neg

/-- The maximum of the scores over the sequence, from minus infinity. -/
def rowMax (sc : σ → EReal) : EReal := (Finset.univ : Finset σ).fold max ⊥ sc

/-- The weight of position `s`: the exponential of its score less the maximum. -/
def weight (sc : σ → EReal) (s : σ) : EReal := Ideal.exp (sc s - rowMax sc)

/-- The weighted sum of a column divided by the total weight. -/
def pooledQuot (sc c : σ → EReal) : EReal := Ideal.div (∑ s, weight sc s * c s) (∑ s, weight sc s)

/-- The column summed against the weights each divided by the total weight. -/
def pooledSum (sc c : σ → EReal) : EReal := ∑ s, Ideal.div (weight sc s) (∑ s', weight sc s') * c s

/-- The maximum from minus infinity of finitely many reals, at least one, is a real. -/
theorem fold_max_real (a : σ → ℝ) (S : Finset σ) (hS : S.Nonempty) :
    ∃ μ : ℝ, S.fold max (⊥ : EReal) (fun s => (a s : EReal)) = μ := by
  classical
  induction S using Finset.induction_on with
  | empty => exact absurd hS Finset.not_nonempty_empty
  | insert x S hx ih =>
    rw [Finset.fold_insert hx]
    rcases S.eq_empty_or_nonempty with rfl | hne
    · exact ⟨a x, by rw [Finset.fold_empty, max_eq_left bot_le]⟩
    · obtain ⟨μ, hμ⟩ := ih hne
      exact ⟨max (a x) μ, by rw [hμ]; exact (EReal.coe_strictMono.monotone.map_max).symm⟩

/-- A score is real when the query row, the sequence, the mask and the two constants are. -/
theorem score_real {one neg : EReal} (h1 : ∃ r : ℝ, one = r) (hn : ∃ r : ℝ, neg = r) {Q : κ → EReal} {C : σ → κ → EReal}
    {Mk : σ → EReal} (hQ : ∀ k, ∃ r : ℝ, Q k = r) (hC : ∀ s k, ∃ r : ℝ, C s k = r) (hM : ∀ s, ∃ r : ℝ, Mk s = r) (s : σ) :
    ∃ r : ℝ, score one neg Q C Mk s = r := by
  obtain ⟨o, rfl⟩ := h1
  obtain ⟨n, rfl⟩ := hn
  choose q hq using hQ
  choose cc hcc using hC
  choose mk hmk using hM
  refine ⟨(∑ k, q k * cc s k) + (o - mk s) * n, ?_⟩
  unfold score
  simp only [hq, hcc, hmk]
  rw [EReal.coe_add, EReal.coe_mul, EReal.coe_sub, coe_sum]
  simp only [EReal.coe_mul]

/-- On real scores and a real column the two normalisations agree. -/
theorem pooledSum_eq_pooledQuot [Nonempty σ] (sc c : σ → EReal) (hsc : ∀ s, ∃ r : ℝ, sc s = r) (hc : ∀ s, ∃ r : ℝ, c s = r) :
    pooledSum sc c = pooledQuot sc c := by
  choose a ha using hsc
  choose g hg using hc
  obtain rfl : sc = fun s => (a s : EReal) := funext ha
  obtain rfl : c = fun s => (g s : EReal) := funext hg
  obtain ⟨μ, hμ⟩ := fold_max_real a Finset.univ Finset.univ_nonempty
  have hw : ∀ s, weight (fun s => (a s : EReal)) s = ((Real.exp (a s - μ) : ℝ) : EReal) := by
    intro s
    unfold weight rowMax
    rw [hμ, ← EReal.coe_sub, Ideal.exp_coe]
  have hℓ : 0 < ∑ s, Real.exp (a s - μ) := Finset.sum_pos (fun s _ => Real.exp_pos _) Finset.univ_nonempty
  have hL : ∑ s, weight (fun s => (a s : EReal)) s = ((∑ s, Real.exp (a s - μ) : ℝ) : EReal) := by
    rw [coe_sum]; exact Finset.sum_congr rfl (fun s _ => hw s)
  unfold pooledSum pooledQuot
  rw [hL]
  simp only [hw, Ideal.div_coe hℓ.ne', ← EReal.coe_mul, ← coe_sum]
  refine congrArg _ ?_
  rw [Finset.sum_mul]
  exact Finset.sum_congr rfl (fun s _ => by ring)

/-! ## The pooled array of the attention layer -/

open Idealize.ShloMosaic.ValueIdx

/-- The two constants of the additive mask, as the extended reals their words denote: one, and the large negative
    fill value. -/
abbrev maskOne : EReal := Ideal.ofBits .f32 0x3F800000#32
abbrev maskFill : EReal := Ideal.ofBits .f32 0xC7C35000#32

/-- The word of one denotes the real one. -/
theorem maskOne_real : ∃ r : ℝ, maskOne = r := by
  refine ⟨1, ?_⟩
  simp [maskOne, Ideal.ofBits, Ideal.ieee, -EReal.coe_mul]; norm_num

/-- The fill word denotes a real number (minus one hundred thousand). -/
theorem maskFill_real : ∃ r : ℝ, maskFill = r := by
  refine ⟨-100000, ?_⟩
  simp [maskFill, Ideal.ofBits, Ideal.ieee, -EReal.coe_mul, -EReal.coe_neg]; norm_num

/-- The word of minus infinity denotes the bottom of the extended reals. -/
theorem ofBits_neg_inf : Ideal.ofBits .f32 0xFF800000#32 = ⊥ := by simp [Ideal.ofBits, Ideal.ieee]

/-- The masked scores of query row `q` against the sequence of batch `b`: `x0` is the context [16, 4096, 768],
    `x1` the mask [16, 4096], `x2` the queries [64, 768]. -/
def scores (x0 : (⟨3, ![16, 4096, 768]⟩ : Shape).Idx → EReal) (x1 : (⟨2, ![16, 4096]⟩ : Shape).Idx → EReal)
    (x2 : (⟨2, ![64, 768]⟩ : Shape).Idx → EReal) (b : Fin 16) (q : Fin 64) : Fin 4096 → EReal :=
  score maskOne maskFill (fun k : Fin 768 => x2 (ix2 q k)) (fun (s : Fin 4096) (k : Fin 768) => x0 (ix3 b s k))
    (fun s : Fin 4096 => x1 (ix2 b s))

/-- The pooled array [16, 64, 768]: entry (b, q, d) is the softmax of row (b, q)'s masked scores over the sequence,
    applied to column `d` of batch `b`'s context, with the division by the total weight taken last. -/
def pooled (x0 : (⟨3, ![16, 4096, 768]⟩ : Shape).Idx → EReal) (x1 : (⟨2, ![16, 4096]⟩ : Shape).Idx → EReal)
    (x2 : (⟨2, ![64, 768]⟩ : Shape).Idx → EReal) : (⟨3, ![16, 64, 768]⟩ : Shape).Idx → EReal := fun i =>
  pooledQuot (scores x0 x1 x2 (i 0) (i 1)) (fun s : Fin 4096 => x0 (ix3 (i 0) s (i 2)))

/-- Real inputs give real scores. -/
theorem scores_real {x0 : (⟨3, ![16, 4096, 768]⟩ : Shape).Idx → EReal} {x1 : (⟨2, ![16, 4096]⟩ : Shape).Idx → EReal}
    {x2 : (⟨2, ![64, 768]⟩ : Shape).Idx → EReal} (h0 : ∀ i, ∃ r : ℝ, x0 i = r) (h1 : ∀ i, ∃ r : ℝ, x1 i = r)
    (h2 : ∀ i, ∃ r : ℝ, x2 i = r) (b : Fin 16) (q : Fin 64) (s : Fin 4096) : ∃ r : ℝ, scores x0 x1 x2 b q s = r :=
  score_real maskOne_real maskFill_real (fun k => h2 _) (fun s k => h0 _) (fun s => h1 _) s

end Cert.Pool

end
-- ==== Proof.RefPool.lean ====
/-
  The reference program's result, read entry by entry: entry (b, q, d) of its last product is the sum over the
  sequence of the softmax weight of position s — the exponential of the masked score less the row's maximum,
  divided by the row's total weight — times the context at (b, s, d). Each operation of the program is read at
  the coordinates that feed that entry; on real inputs the sum equals the quotient form of the pooled array.
-/
import proofs.«109145_j56873956933987_2_alg».proof.Proof.Gen.ReferenceIdeal.Read
import proofs.«109145_j56873956933987_2_alg».proof.Proof.PoolLaw

noncomputable section

namespace Cert.ReferenceIdeal.RefValue

open Cert.ReferenceIdeal Cert.ReferenceIdeal.Gen Cert.ReferenceIdeal.Read Idealize.ShloMosaic Idealize.ShloMosaic.ValueIdx
open Cert.Pool

variable (x0 : (⟨S16x4096x768, .f32⟩ : BufTy).Contents (Elt Ideal)) (x1 : (⟨S16x4096, .f32⟩ : BufTy).Contents (Elt Ideal))
  (x2 : (⟨S64x768, .f32⟩ : BufTy).Contents (Elt Ideal))

/-! ## The coordinates each operation reads -/

theorem lidx0 (b : Fin 16) (q : Fin 64) (s : Fin 4096) (k : Fin 768) :
    lidx_main_v0 (idx_main_v1 (ix3 b q s)) k = ix3 b s k :=
  funext fun a => Fin.ext (by match a with | ⟨0, _⟩ => rfl | ⟨1, _⟩ => rfl | ⟨2, _⟩ => rfl)

theorem ridx0 (b : Fin 16) (q : Fin 64) (s : Fin 4096) (k : Fin 768) :
    ridx_main_v0 (idx_main_v1 (ix3 b q s)) k = ix2 q k :=
  funext fun a => Fin.ext (by match a with | ⟨0, _⟩ => rfl | ⟨1, _⟩ => rfl)

theorem idx47 (b : Fin 16) (q : Fin 64) (s : Fin 4096) : idx_main_v4 (idx_main_v7 (ix3 b q s)) = ix2 b s :=
  funext fun a => Fin.ext (by match a with | ⟨0, _⟩ => rfl | ⟨1, _⟩ => rfl)

theorem idx1213 (b : Fin 16) (q : Fin 64) (s : Fin 4096) : idx_main_v12 (idx_main_v13 (ix3 b q s)) = ix2 b q :=
  funext fun a => Fin.ext (by match a with | ⟨0, _⟩ => rfl | ⟨1, _⟩ => rfl)

theorem idx1718 (b : Fin 16) (q : Fin 64) (s : Fin 4096) : idx_main_v17 (idx_main_v18 (ix3 b q s)) = ix2 b q :=
  funext fun a => Fin.ext (by match a with | ⟨0, _⟩ => rfl | ⟨1, _⟩ => rfl)

theorem idx16 (b : Fin 16) (q : Fin 64) (k : Fin 4096) : idx_main_v16 (ix2 b q) k = ix3 b q k :=
  funext fun a => Fin.ext (by match a with | ⟨0, _⟩ => rfl | ⟨1, _⟩ => rfl | ⟨2, _⟩ => rfl)

theorem lidx20 (b : Fin 16) (q : Fin 64) (d : Fin 768) (k : Fin 4096) : lidx_main_v20 (ix3 b q d) k = ix3 b q k :=
  funext fun a => Fin.ext (by match a with | ⟨0, _⟩ => rfl | ⟨1, _⟩ => rfl | ⟨2, _⟩ => rfl)

theorem ridx20 (b : Fin 16) (q : Fin 64) (d : Fin 768) (k : Fin 4096) : ridx_main_v20 (ix3 b q d) k = ix3 b k d :=
  funext fun a => Fin.ext (by match a with | ⟨0, _⟩ => rfl | ⟨1, _⟩ => rfl | ⟨2, _⟩ => rfl)

/-- The sequence axis of the score array is the one the two reductions drop. -/
theorem hred : S16x64x4096.Reduces [2] S16x64 := by decide

/-- Over row (b, q), the score array's index with sequence coordinate `k` is (b, q, k). -/
theorem lift_row (b : Fin 16) (q : Fin 64) (k : Fin 4096) : hred.lift (ix2 b q) k = ix3 b q k := by
  funext c
  match c with
  | ⟨0, _⟩ => exact Fin.ext rfl
  | ⟨1, _⟩ => exact Fin.ext rfl
  | ⟨2, _⟩ => exact Fin.ext rfl

/-! ## The stages at an entry -/

/-- The masked score array at (b, q, s). -/
theorem v8_at (b : Fin 16) (q : Fin 64) (s : Fin 4096) :
    val_main_v8 (F := Ideal) x0 x1 x2 (ix3 b q s) = scores x0 x1 x2 b q s := by
  rw [val_main_v8_apply, val_main_v1_apply, val_main_v0_apply, val_main_v7_apply, val_main_v6_apply, val_main_v4_apply,
    val_main_v3_apply, val_main_v2_apply, val_main_cst_apply, val_main_v5_apply, val_main_cst_0_apply, idx47]
  simp only [lidx0, ridx0, Ideal.addf_def, Ideal.subf_def, Ideal.mulf_def, Ideal.ofBits_def]
  unfold scores score
  refine congrArg (· + _) (Finset.sum_congr rfl fun k _ => mul_comm _ _)

/-- The row maximum at (b, q): the reduce from minus infinity, then the maximum with minus infinity again. -/
theorem v11_at (b : Fin 16) (q : Fin 64) :
    val_main_v11 (F := Ideal) x0 x1 x2 (ix2 b q) = rowMax (scores x0 x1 x2 b q) := by
  rw [val_main_v11_apply, val_main_v10_apply, val_main_cst_2_apply]
  unfold val_main_v9
  rw [Host.reduce_eq_fold_single FloatOps.maximumf _ _ reducesTo_S16x64x4096_S16x64_d2 hred h_S_]
  have hf : (val_main_v8 (F := Ideal) x0 x1 x2 ∘ hred.lift (ix2 b q)) = scores x0 x1 x2 b q := funext fun s =>
    (congrArg (val_main_v8 (F := Ideal) x0 x1 x2) (lift_row b q s)).trans (v8_at x0 x1 x2 b q s)
  rw [hf]
  show max (Ideal.ofBits .f32 0xFF800000#32) (Finset.fold max (Ideal.ofBits .f32 0xFF800000#32) _ _) = _
  rw [ofBits_neg_inf, max_eq_right bot_le]
  rfl

/-- The exponential array at (b, q, s) is the weight of position s. -/
theorem v15_at (b : Fin 16) (q : Fin 64) (s : Fin 4096) :
    val_main_v15 (F := Ideal) x0 x1 x2 (ix3 b q s) = weight (scores x0 x1 x2 b q) s := by
  rw [val_main_v15_apply, val_main_v14_apply, val_main_v13_apply, val_main_v12_apply, idx1213, v11_at, v8_at]
  rfl

/-- The total weight of row (b, q). -/
theorem v16_at (b : Fin 16) (q : Fin 64) :
    val_main_v16 (F := Ideal) x0 x1 x2 (ix2 b q) = ∑ s, weight (scores x0 x1 x2 b q) s := by
  rw [val_main_v16_apply, val_main_cst_3_apply]
  show Ideal.ofBits .f32 0x00000000#32 + _ = _
  rw [Ideal.ofBits_zero_f32, zero_add]
  exact Finset.sum_congr rfl fun k _ => by rw [idx16, v15_at]

/-- The normalised weight at (b, q, s). -/
theorem v19_at (b : Fin 16) (q : Fin 64) (s : Fin 4096) :
    val_main_v19 (F := Ideal) x0 x1 x2 (ix3 b q s)
      = Ideal.div (weight (scores x0 x1 x2 b q) s) (∑ s', weight (scores x0 x1 x2 b q) s') := by
  rw [val_main_v19_apply, val_main_v18_apply, val_main_v17_apply, idx1718, v16_at, v15_at]
  rfl

/-- The result at (b, q, d): the context's column summed against the normalised weights. -/
theorem v20_at (b : Fin 16) (q : Fin 64) (d : Fin 768) :
    val_main_v20 (F := Ideal) x0 x1 x2 (ix3 b q d)
      = pooledSum (scores x0 x1 x2 b q) (fun s : Fin 4096 => x0 (ix3 b s d)) := by
  rw [val_main_v20_apply]
  unfold pooledSum
  exact Finset.sum_congr rfl fun k _ => by rw [lidx20, ridx20, v19_at]

/-- On real inputs the reference's result is the pooled array. -/
theorem result_eq (h0 : ∀ i, ∃ r : ℝ, x0 i = r) (h1 : ∀ i, ∃ r : ℝ, x1 i = r) (h2 : ∀ i, ∃ r : ℝ, x2 i = r) :
    val_main_v20 (F := Ideal) x0 x1 x2 = pooled x0 x1 x2 := by
  funext i
  obtain ⟨b, q, d, rfl⟩ : ∃ (b : Fin 16) (q : Fin 64) (d : Fin 768), i = ix3 b q d := ⟨i 0, i 1, i 2, eq_ix3 i⟩
  rw [v20_at]
  exact pooledSum_eq_pooledQuot _ _ (scores_real h0 h1 h2 b q) (fun s => h0 _)

end Cert.ReferenceIdeal.RefValue

end
-- ==== Proof.LibMatmul.lean ====
/-
  A rank-2 matrix product read at an index, at the exact extended reals: when the dimension numbers contract the
  left operand's column axis with the right operand's row axis and keep the other two axes in order, the product
  accumulated into zeros is, at row `p` and column `q`, the sum over `k` of `lhs (p, k) · rhs (k, q)` — a sum over
  the contracted extent itself, not over the contraction's own index type.
-/
import Idealize.ShloMosaic.PureOps.Ideal.Laws
import Idealize.ShloMosaic.Lib.ValueIdx

noncomputable section

namespace Cert.LibMatmul

open Idealize.ShloMosaic Idealize.ShloMosaic.ValueIdx

/-- A product `[a, K] × [K, b] → [a, b]` into a zero accumulator, at an output index `j`: the four coordinate facts
    say which operand entries the dimension numbers pair at the contraction index (the left one at `(j 0, k)`, the
    right one at `(k, j 1)`); the contraction has one axis, of extent `K`, and the sum is re-indexed along it. -/
theorem matmul_zero_ix2 {a K b : Nat} {φ₁ φ₂ : FTy}
    (d : DotDims ⟨2, ![a, K]⟩ ⟨2, ![K, b]⟩ ⟨2, ![a, b]⟩) (prec : Option ContractPrecision)
    (hr : d.contr.rank = 1) (hs : d.contr.size ⟨0, by omega⟩ = K)
    (hl0 : ∀ j q, (d.lhsIdx j q 0).val = (j 0).val)
    (hl1 : ∀ j q, (d.lhsIdx j q 1).val = (q ⟨0, by omega⟩).val)
    (hr0 : ∀ j q, (d.rhsIdx j q 0).val = (q ⟨0, by omega⟩).val)
    (hr1 : ∀ j q, (d.rhsIdx j q 1).val = (j 1).val)
    (lhs : FVec Ideal ⟨2, ![a, K]⟩ φ₁) (rhs : FVec Ideal ⟨2, ![K, b]⟩ φ₂) (j : (⟨2, ![a, b]⟩ : Shape).Idx) :
    FloatOps.matmul d prec lhs rhs (constant ⟨2, ![a, b]⟩ .f32 0x00000000#32) j
      = ∑ k : Fin K, lhs (ix2 (j 0) k) * rhs (ix2 k (j 1)) := by
  rw [Ideal.matmul_constant_zero_apply, ← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun x => Fin.ext (by
    match x with
    | ⟨0, _⟩ => exact hl0 _ _
    | ⟨1, _⟩ => exact (hl1 _ _).trans hk)
  have er : d.rhsIdx j ((contrEquiv1 d K hr hs).symm k) = ix2 k (j 1) := funext fun x => Fin.ext (by
    match x with
    | ⟨0, _⟩ => exact (hr0 _ _).trans hk
    | ⟨1, _⟩ => exact hr1 _ _)
  rw [el, er]
  rfl

end Cert.LibMatmul

end
-- ==== Proof.LibMatmulT.lean ====
/-
  A matrix product that contracts the LAST axis of both operands, [a, K] × [b, K] → [a, b], accumulated into the zero
  matrix and read at an entry over the extended reals: entry (i, j) is the sum over k of the left operand at (i, k)
  times the right operand at (j, k) — the product of the left matrix with the transpose of the right one.
-/
import Idealize.ShloMosaic.Lib.ValueIdx
import Idealize.ShloMosaic.PureOps.Ideal.Laws

open scoped BigOperators

namespace Idealize.ShloMosaic.ValueIdx

open Idealize.ShloMosaic

/-- Let the dimension numbers `D` of a product [a, K] × [b, K] → [a, b] contract one axis of extent `K` (`hr`, `hs`), and let
    the operand indices they name at result index `j` and contraction index `q` be (j₀, q) on the left (`hl0`, `hl1`) and
    (j₁, q) on the right (`hr0`, `hr1`). Then the product into the zero accumulator, read at (i, j) over the extended reals,
    is `∑ k, lhs (i, k) * rhs (j, k)`: the contraction's index set is matched with `Fin K` and the sum re-indexed. -/
theorem matmulT_zero_apply {a K b : ℕ} {φ₁ φ₂ : FTy}
    (D : DotDims ⟨2, ![a, K]⟩ ⟨2, ![b, K]⟩ ⟨2, ![a, b]⟩) (prec : Option ContractPrecision)
    (hr : D.contr.rank = 1) (hs : D.contr.size ⟨0, by omega⟩ = K)
    (hl0 : ∀ (j : (⟨2, ![a, b]⟩ : Shape).Idx) (q : D.contr.Idx), (D.lhsIdx j q 0).val = (j 0).val)
    (hl1 : ∀ (j : (⟨2, ![a, b]⟩ : Shape).Idx) (q : D.contr.Idx), (D.lhsIdx j q 1).val = (q ⟨0, by omega⟩).val)
    (hr0 : ∀ (j : (⟨2, ![a, b]⟩ : Shape).Idx) (q : D.contr.Idx), (D.rhsIdx j q 0).val = (j 1).val)
    (hr1 : ∀ (j : (⟨2, ![a, b]⟩ : Shape).Idx) (q : D.contr.Idx), (D.rhsIdx j q 1).val = (q ⟨0, by omega⟩).val)
    (lhs : FVec Ideal ⟨2, ![a, K]⟩ φ₁) (rhs : FVec Ideal ⟨2, ![b, K]⟩ φ₂) (i : Fin a) (j : Fin b) :
    matmul D prec lhs rhs (constant (F := Ideal) ⟨2, ![a, b]⟩ .f32 0x00000000#32) (ix2 i j)
      = ∑ k : Fin K, lhs (ix2 i k) * rhs (ix2 j k) := by
  show FloatOps.matmul D prec lhs rhs (constant (F := Ideal) ⟨2, ![a, b]⟩ .f32 0x00000000#32) (ix2 i j) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 i j) ((contrEquiv1 D K hr hs).symm k) = ix2 i k := funext fun ax => Fin.ext (by
    match ax with
    | ⟨0, _⟩ => exact hl0 _ _
    | ⟨1, _⟩ => exact (hl1 _ _).trans hk)
  have er : D.rhsIdx (ix2 i j) ((contrEquiv1 D K hr hs).symm k) = ix2 j k := funext fun ax => Fin.ext (by
    match ax with
    | ⟨0, _⟩ => exact hr0 _ _
    | ⟨1, _⟩ => exact (hr1 _ _).trans hk)
  rw [el, er]

end Idealize.ShloMosaic.ValueIdx
-- ==== Proof.LibColumn.lean ====
/-
  A column kept by a reduction ("keepdims"): the two layout steps that turn a vector of row results into
  a matrix with one value per row, each read at an index written by coordinates.
-/
import Idealize.ShloMosaic.Lib.Pipeline.Value
import Idealize.ShloMosaic.Lib.ValueIdx

namespace Idealize.ShloMosaic.ValueIdx

variable {α : Type}

/-- An `[a]` vector cast to the column `[a, 1]` reads, at `(i, u)`, the operand at `i`, whatever the
    unit coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b, 1]` array cast to `[a, b]` (the kept unit axis dropped) reads, at `(i, j)`, the operand at
    `(i, j, 0)`: both indices have row-major position `i·b + j`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

end Idealize.ShloMosaic.ValueIdx
-- ==== Proof.LibRowSum.lean ====
/-
  A sum along the last axis of a matrix, read at a row.

  For x of shape [a, b], the kernel's lane reduction with neutral accumulator and the host's reduce with initial value
  init, both along axis 1, read at row p are the finite sum over k : Fin b of x (p, k) (the host's with init added in
  front): the source index over row p with coordinate k on the dropped axis is (p, k).
-/
import Idealize.ShloMosaic.PureOps.Ideal.Laws
import Idealize.ShloMosaic.Lib.ValueIdx

noncomputable section

namespace Cert.LibRowSum

open Idealize.ShloMosaic Idealize.ShloMosaic.ValueIdx

/-- Over row p of an [a, b] matrix, the source index with coordinate k on axis 1 is (p, k). -/
theorem lift_row {a b : ℕ} (h : (⟨2, ![a, b]⟩ : Shape).Reduces [1] ⟨1, ![a]⟩) (p : Fin a) (k : Fin b) :
    h.lift (ix1 p) k = ix2 p k := by
  funext c
  match c with
  | ⟨0, _⟩ => exact Fin.ext rfl
  | ⟨1, _⟩ => exact Fin.ext rfl

/-- The kernel's lane sum of an [a, b] matrix at row p is the sum of the row's entries. -/
theorem multiReduction_add_row {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The host's sum of an [a, b] matrix along axis 1 at row p is the initial value plus the sum of the row's entries. -/
theorem hostReduceAdd_row {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (p : Fin a) :
    Ideal.hostReduceAdd h' x init (ix1 p) = init + ∑ k : Fin b, x (ix2 p k) :=
  (Ideal.hostReduceAdd_single h' h x init (ix1 p)).trans
    (congrArg (init + ·) (Finset.sum_congr rfl fun k _ => congrArg x (lift_row h p k)))

end Cert.LibRowSum

end
-- ==== Proof.KernelPool.lean ====
/-
  What the kernel body stores at one grid point, read entry by entry. The body holds the queries [64, 768], one batch's
  context [1, 4096, 768] and that batch's mask [1, 1, 4096]; it forms the masked scores [64, 4096], takes each row's
  maximum, exponentiates the differences, sums each row's weights, multiplies the weights into the context and
  divides each row of the product by its total weight. Entry (0, q, d) of the stored block is therefore the quotient
  form of the softmax pooling of query row q over the batch's sequence, applied to the context's column d.
-/
import proofs.«109145_j56873956933987_2_alg».proof.Proof.Gen.KernelIdeal.Skeleton
import proofs.«109145_j56873956933987_2_alg».proof.Proof.PoolLaw
import proofs.«109145_j56873956933987_2_alg».proof.Proof.LibMatmul
import proofs.«109145_j56873956933987_2_alg».proof.Proof.LibMatmulT
import proofs.«109145_j56873956933987_2_alg».proof.Proof.LibColumn
import proofs.«109145_j56873956933987_2_alg».proof.Proof.LibRowSum
import Idealize.ShloMosaic.Lib.ValueLayout
import Idealize.ShloMosaic.Lib.ValueIdx
import Idealize.ShloMosaic.PureOps.Ideal.Laws

noncomputable section

namespace Cert.KernelIdeal.BodyValue

open Cert.KernelIdeal Cert.KernelIdeal.Gen Idealize.ShloMosaic Idealize.ShloMosaic.ValueIdx
open Cert.Pool

/-! ## The body's intermediate arrays -/

section AnyFloat

variable {F : FTy → Type} [FloatOps F]
variable (v0 : Vec F S64x768 .f32) (v1 : Vec F S1x4096x768 .f32) (v3 : Vec F S1x1x4096 .f32)

/-- The batch's context as a matrix [4096, 768]. -/
def ctx : FVec F S4096x768 .f32 := shapeCast S4096x768 v1 shapeCasts_S1x4096x768_S4096x768

/-- The masked scores [64, 4096]: queries times the context's transpose, plus the mask term on every row. -/
def scoreMat : FVec F S64x4096 .f32 :=
  addf (matmul dot_S64x768_S4096x768_S64x4096_1_1_0_0_n_n (some .fp32) v0 (ctx v1) (constant S64x4096 .f32 0x00000000#32))
    (broadcastTo S64x4096
      (mulf (subf (broadcast S1x4096 (Scalar.ofBits .f32 0x3F800000#32)) (shapeCast S1x4096 v3 shapeCasts_S1x1x4096_S1x4096))
        (broadcast S1x4096 (Scalar.ofBits .f32 0xC7C35000#32)))
      broadcasts_S1x4096_S64x4096)

/-- The weights [64, 4096]: the exponential of each score less its row's maximum. -/
def weightMat : FVec F S64x4096 .f32 :=
  exp (subf (scoreMat v0 v1 v3)
    (broadcastTo S64x4096
      (shapeCast S64x1 (multiReduction .maximumf [1] S64 (scoreMat v0 v1 v3) 0xFF800000#32 reduces_S64x4096_S64 (.inl rfl) rfl)
        shapeCasts_S64_S64x1)
      broadcasts_S64x1_S64x4096))

set_option maxRecDepth 65536 in
/-- The stored block is the weights times the context, each row divided by its total weight, with a unit axis in front. -/
theorem pay_eq : k0_pay1 v0 v1 v3
    = shapeCast S1x64x768
        (divf (matmul dot_S64x4096_S4096x768_S64x768_1_0_0_1_n_n (some .fp32) (weightMat v0 v1 v3) (ctx v1) (constant S64x768 .f32 0x00000000#32))
          (broadcastTo S64x768
            (shapeCast S64x1 (multiReduction .add [1] S64 (weightMat v0 v1 v3) 0x00000000#32 reduces_S64x4096_S64 (.inl rfl) rfl)
              shapeCasts_S64_S64x1)
            broadcasts_S64x1_S64x768))
        shapeCasts_S64x768_S1x64x768 := rfl

end AnyFloat

variable (v0 : Vec Ideal S64x768 .f32) (v1 : Vec Ideal S1x4096x768 .f32) (v3 : Vec Ideal S1x1x4096 .f32)

/-! ## The two products' dimension numbers -/

local notation "D1" => dot_S64x768_S4096x768_S64x4096_1_1_0_0_n_n
local notation "D2" => dot_S64x4096_S4096x768_S64x768_1_0_0_1_n_n

theorem d1_l0 (j : S64x4096.Idx) (q : (D1).contr.Idx) : ((D1).lhsIdx j q 0).val = (j 0).val := by
  unfold DotDims.lhsIdx
  rw [dif_neg (show ¬(0 : Fin S64x768.rank) ∈ (D1).lhsBatch by decide), dif_pos (show (0 : Fin S64x768.rank) ∈ (D1).lhsNonContracting by decide)]
  rfl
theorem d1_l1 (j : S64x4096.Idx) (q : (D1).contr.Idx) : ((D1).lhsIdx j q 1).val = (q ⟨0, by decide⟩).val :=
  (D1).lhsIdx_val_of_single rfl j q
theorem d1_r0 (j : S64x4096.Idx) (q : (D1).contr.Idx) : ((D1).rhsIdx j q 0).val = (j 1).val := by
  unfold DotDims.rhsIdx
  rw [dif_neg (show ¬(0 : Fin S4096x768.rank) ∈ (D1).rhsBatch by decide), dif_pos (show (0 : Fin S4096x768.rank) ∈ (D1).rhsNonContracting by decide)]
  rfl
theorem d1_r1 (j : S64x4096.Idx) (q : (D1).contr.Idx) : ((D1).rhsIdx j q 1).val = (q ⟨0, by decide⟩).val :=
  (D1).rhsIdx_val_of_single rfl j q

theorem d2_l0 (j : S64x768.Idx) (q : (D2).contr.Idx) : ((D2).lhsIdx j q 0).val = (j 0).val := by
  unfold DotDims.lhsIdx
  rw [dif_neg (show ¬(0 : Fin S64x4096.rank) ∈ (D2).lhsBatch by decide), dif_pos (show (0 : Fin S64x4096.rank) ∈ (D2).lhsNonContracting by decide)]
  rfl
theorem d2_l1 (j : S64x768.Idx) (q : (D2).contr.Idx) : ((D2).lhsIdx j q 1).val = (q ⟨0, by decide⟩).val :=
  (D2).lhsIdx_val_of_single rfl j q
theorem d2_r0 (j : S64x768.Idx) (q : (D2).contr.Idx) : ((D2).rhsIdx j q 0).val = (q ⟨0, by decide⟩).val :=
  (D2).rhsIdx_val_of_single rfl j q
theorem d2_r1 (j : S64x768.Idx) (q : (D2).contr.Idx) : ((D2).rhsIdx j q 1).val = (j 1).val := by
  unfold DotDims.rhsIdx
  rw [dif_neg (show ¬(1 : Fin S4096x768.rank) ∈ (D2).rhsBatch by decide), dif_pos (show (1 : Fin S4096x768.rank) ∈ (D2).rhsNonContracting by decide)]
  rfl

/-! ## The arrays at an entry -/

/-- The scores of query row `q` against the block's sequence. -/
def blockScores (q : Fin 64) : Fin 4096 → EReal :=
  score maskOne maskFill (fun k : Fin 768 => v0 (ix2 q k)) (fun (s : Fin 4096) (k : Fin 768) => v1 (ix3 (0 : Fin 1) s k))
    (fun s : Fin 4096 => v3 (ix3 (0 : Fin 1) (0 : Fin 1) s))

theorem ctx_at (s : Fin 4096) (k : Fin 768) : ctx v1 (ix2 s k) = v1 (ix3 (0 : Fin 1) s k) :=
  shapeCast_1ab_ab_apply v1 shapeCasts_S1x4096x768_S4096x768 s k

theorem scoreMat_at (q : Fin 64) (s : Fin 4096) : scoreMat v0 v1 v3 (ix2 q s) = blockScores v0 v1 v3 q s := by
  unfold scoreMat
  rw [addf_apply, matmulT_zero_apply D1 (some .fp32) rfl rfl d1_l0 d1_l1 d1_r0 d1_r1 v0 (ctx v1) q s,
    broadcastTo_1b_ab_apply, mulf_apply, subf_apply, broadcast_apply, broadcast_apply, shapeCast_1ab_ab_apply]
  simp only [ctx_at]
  rfl

/-- Each row's maximum, from minus infinity. -/
theorem rowMax_at (q : Fin 64) :
    multiReduction .maximumf [1] S64 (scoreMat v0 v1 v3) 0xFF800000#32 reduces_S64x4096_S64 (.inl rfl) rfl (ix1 q)
      = rowMax (blockScores v0 v1 v3 q) := by
  refine (Ideal.multiReduction_maximumf_single (scoreMat v0 v1 v3) 0xFF800000#32 reduces_S64x4096_S64 (.inl rfl) rfl (ix1 q)).trans ?_
  have hf : (scoreMat v0 v1 v3 ∘ (reduces_S64x4096_S64 : S64x4096.Reduces [1] S64).lift (ix1 q)) = blockScores v0 v1 v3 q :=
    funext fun s => (congrArg (scoreMat v0 v1 v3) (Cert.LibRowSum.lift_row reduces_S64x4096_S64 q s)).trans (scoreMat_at v0 v1 v3 q s)
  rw [hf]
  show Finset.fold max (Ideal.ofBits .f32 0xFF800000#32) _ _ = _
  rw [ofBits_neg_inf]
  rfl

theorem weightMat_at (q : Fin 64) (s : Fin 4096) : weightMat v0 v1 v3 (ix2 q s) = weight (blockScores v0 v1 v3 q) s := by
  unfold weightMat
  show Ideal.exp (scoreMat v0 v1 v3 (ix2 q s) - broadcastTo S64x4096 _ broadcasts_S64x1_S64x4096 (ix2 q s)) = _
  rw [broadcastTo_a1_ab_apply, shapeCast_a_a1_apply, rowMax_at, scoreMat_at]
  rfl

/-- Each row's total weight. -/
theorem rowSum_at (q : Fin 64) :
    multiReduction .add [1] S64 (weightMat v0 v1 v3) 0x00000000#32 reduces_S64x4096_S64 (.inl rfl) rfl (ix1 q)
      = ∑ s, weight (blockScores v0 v1 v3 q) s :=
  (Cert.LibRowSum.multiReduction_add_row (weightMat v0 v1 v3) 0x00000000#32 reduces_S64x4096_S64 (.inl rfl) rfl q).trans
    (Finset.sum_congr rfl fun s _ => weightMat_at v0 v1 v3 q s)

/-- Entry (0, q, d) of the stored block. -/
theorem pay_at (q : Fin 64) (d : Fin 768) :
    k0_pay1 (F := Ideal) v0 v1 v3 (ix3 (0 : Fin 1) q d)
      = pooledQuot (blockScores v0 v1 v3 q) (fun s : Fin 4096 => v1 (ix3 (0 : Fin 1) s d)) := by
  rw [pay_eq, shapeCast_ab_1ab_apply, divf_apply, broadcastTo_a1_ab_apply, shapeCast_a_a1_apply, rowSum_at]
  refine congrArg (Ideal.div · _) ?_
  refine (Cert.LibMatmul.matmul_zero_ix2 D2 (some .fp32) rfl rfl d2_l0 d2_l1 d2_r0 d2_r1 (weightMat v0 v1 v3) (ctx v1) (ix2 q d)).trans ?_
  exact Finset.sum_congr rfl fun s _ => by
    show weightMat v0 v1 v3 (ix2 q s) * ctx v1 (ix2 s d) = _
    rw [weightMat_at, ctx_at]

end Cert.KernelIdeal.BodyValue

end
-- ==== Proof.KernelRun.lean ====
/-
  From the blocks to the array. Grid point t stages the whole query matrix, batch t of the context, and batch t of
  the mask (which a reshape laid out [16, 1, 4096] before the call), and writes back block t of the result. Each
  staged block is the corresponding array read at batch t, so what point t writes back is block t of the pooled array
  of the arrays the call finds; the sixteen blocks cover the result, which therefore ends holding the pooled array of
  the arguments.
-/
import proofs.«109145_j56873956933987_2_alg».proof.Proof.Gen.KernelIdeal.Value
import proofs.«109145_j56873956933987_2_alg».proof.Proof.KernelPool
import Idealize.ShloMosaic.Lib.Pipeline.Value
import Idealize.ShloMosaic.Lib.StableHlo.Run

set_option maxRecDepth 16384

noncomputable section

namespace Cert.KernelIdeal.ArrayValue

open Cert.KernelIdeal Cert.KernelIdeal.Gen Cert.KernelIdeal.Value Idealize.ShloMosaic Idealize.ShloMosaic.TcCoe Idealize.SL.Sem
open Idealize.ShloMosaic.ValueIdx Cert.Pool
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The block indices at grid point t, decided over the sixteen points: the queries' block is always the whole
    matrix; the context's, the mask's and the result's block is batch t. -/
theorem idx_facts : ∀ t : Fin cfg0.N,
    win0_0.index t (0 : Fin 2) = 0 ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- The batch a grid point works on. -/
def batch (t : Fin cfg0.N) : Fin 16 := ⟨t.val, Nat.lt_of_lt_of_eq t.isLt N_0⟩

/-! ## The staged blocks as the arrays at batch t -/

theorem queries_at (c : Dev nD) (t : Fin cfg0.N) (q : Fin 64) (k : Fin 768) :
    (iblk m c 0 t : Vec Ideal S64x768 .f32) (ix2 q k) = (V m c main_arg2 : S64x768.Idx → EReal) (ix2 q k) := by
  obtain ⟨e0, e1, -⟩ := idx_facts t
  unfold iblk
  rw [View.read_apply]
  show V m c main_arg2 _ = V m c main_arg2 _
  refine congrArg _ (funext fun a => Fin.ext ?_)
  match a with
  | ⟨0, _⟩ => show win0_0.index t (0 : Fin 2) * 64 + 1 * q.val = q.val; omega
  | ⟨1, _⟩ => show win0_0.index t (1 : Fin 2) * 768 + 1 * k.val = k.val; omega

theorem context_at (c : Dev nD) (t : Fin cfg0.N) (s : Fin 4096) (k : Fin 768) :
    (iblk m c 1 t : Vec Ideal S1x4096x768 .f32) (ix3 (0 : Fin 1) s k)
      = (V m c main_arg0 : S16x4096x768.Idx → EReal) (ix3 (batch t) s k) := by
  obtain ⟨-, -, e0, e1, e2, -⟩ := idx_facts t
  unfold iblk
  rw [View.read_apply]
  show V m c main_arg0 _ = V m c main_arg0 _
  refine congrArg _ (funext fun a => Fin.ext ?_)
  match a with
  | ⟨0, _⟩ => show win0_1.index t (0 : Fin 3) * 1 + 1 * 0 = t.val; omega
  | ⟨1, _⟩ => show win0_1.index t (1 : Fin 3) * 4096 + 1 * s.val = s.val; omega
  | ⟨2, _⟩ => show win0_1.index t (2 : Fin 3) * 768 + 1 * k.val = k.val; omega

theorem mask_at (c : Dev nD) (t : Fin cfg0.N) (s : Fin 4096) :
    (iblk m c 2 t : Vec Ideal S1x1x4096 .f32) (ix3 (0 : Fin 1) (0 : Fin 1) s)
      = (V m c main_call0_v0 : S16x1x4096.Idx → EReal) (ix3 (batch t) (0 : Fin 1) s) := by
  obtain ⟨-, -, -, -, -, e0, e1, e2, -⟩ := idx_facts t
  unfold iblk
  rw [View.read_apply]
  show V m c main_call0_v0 _ = V m c main_call0_v0 _
  refine congrArg _ (funext fun a => Fin.ext ?_)
  match a with
  | ⟨0, _⟩ => show win0_2.index t (0 : Fin 3) * 1 + 1 * 0 = t.val; omega
  | ⟨1, _⟩ => show win0_2.index t (1 : Fin 3) * 1 + 1 * 0 = 0; omega
  | ⟨2, _⟩ => show win0_2.index t (2 : Fin 3) * 4096 + 1 * s.val = s.val; omega

/-! ## The mask as the call finds it -/

/-- An `[a, c]` array cast to `[a, 1, c]` reads, at `(i, u, j)`, the operand at `(i, j)`: both indices have
    row-major position `i·c + j`. -/
theorem shapeCast_ac_a1c_apply {α : Type} {a c : ℕ} (x : (⟨2, ![a, c]⟩ : Shape).Idx → α)
    (h : (⟨2, ![a, c]⟩ : Shape).ShapeCasts ⟨3, ![a, 1, c]⟩) (i : Fin a) (u : Fin 1) (j : Fin c) :
    shapeCast ⟨3, ![a, 1, c]⟩ x h (ix3 i u j) = x (ix2 i j) :=
  shapeCast_apply x h _ _ (by
    have hu : u.val = 0 := by omega
    rw [Shape.rowMajor_val_three, Shape.rowMajor_val_two]
    show i.val * c + j.val = (i.val * 1 + u.val) * c + j.val
    rw [hu, Nat.mul_one, Nat.add_zero])

/-- The reshape before the call lays the mask out [16, 1, 4096]. -/
theorem mask_entry (c : Dev nD) :
    (V m c main_call0_v0 : S16x1x4096.Idx → EReal)
      = shapeCast S16x1x4096 (m ((c : Thread nD τ).loc main_arg1) : S16x4096.Idx → EReal) shapeCasts_S16x4096_S16x1x4096 := by
  dsimp only [Gen.V, Gen.hostOps0]
  after_results
  rfl

/-- The mask the call finds, read back as a [16, 4096] array. -/
def maskOf (mk : S16x1x4096.Idx → EReal) : S16x4096.Idx → EReal := fun i => mk (ix3 (i 0) (0 : Fin 1) (i 1))

theorem maskOf_entry (c : Dev nD) :
    maskOf (V m c main_call0_v0 : S16x1x4096.Idx → EReal) = (m ((c : Thread nD τ).loc main_arg1) : S16x4096.Idx → EReal) := by
  funext i
  obtain ⟨b, s, rfl⟩ : ∃ (b : Fin 16) (s : Fin 4096), i = ix2 b s := ⟨i 0, i 1, eq_ix2 i⟩
  unfold maskOf
  rw [mask_entry]
  exact shapeCast_ac_a1c_apply _ _ b 0 s

/-! ## What a point writes back, the cover, the run -/

/-- The pooled array of the arrays the call finds. -/
abbrev found (c : Dev nD) : S16x64x768.Idx → EReal :=
  pooled (V m c main_arg0 : S16x4096x768.Idx → EReal) (maskOf (V m c main_call0_v0 : S16x1x4096.Idx → EReal))
    (V m c main_arg2 : S64x768.Idx → EReal)

/-- Grid point t writes back block t of the pooled array. -/
theorem flushed_eq (c : Dev nD) (t : Fin cfg0.N) :
    (dats m 0 c).flushed 3 t = ((cfg0.win 3).blk t).view.read (Elt Ideal) (found m c) := by
  rw [Value.flushed3]
  unfold out0_3
  rw [View.canon_unit_zero hz3]
  simp only [View.ld_unit_zero (S := S64x768) hz2, View.ld_unit_zero (S := S1x4096x768) hz3, View.ld_unit_zero (S := S1x1x4096) hz3]
  refine funext fun (j : S1x64x768.Idx) => ?_
  show k0_pay1 (F := Ideal) (iblk m c 0 t) (iblk m c 1 t) (iblk m c 2 t) j = found m c (((cfg0.win 3).blk t).view.emb j)
  obtain ⟨u, q, d, rfl⟩ : ∃ (u : Fin 1) (q : Fin 64) (d : Fin 768), j = ix3 u q d := ⟨j 0, j 1, j 2, eq_ix3 j⟩
  obtain rfl : u = 0 := Subsingleton.elim _ _
  obtain ⟨-, -, -, -, -, -, -, -, e0, e1, e2⟩ := idx_facts t
  have he : ((cfg0.win 3).blk t).view.emb (ix3 (0 : Fin 1) q d) = ix3 (batch t) q d := funext fun a => Fin.ext (by
    match a with
    | ⟨0, _⟩ => show win0_3.index t (0 : Fin 3) * 1 + 1 * 0 = t.val; omega
    | ⟨1, _⟩ => show win0_3.index t (1 : Fin 3) * 64 + 1 * q.val = q.val; omega
    | ⟨2, _⟩ => show win0_3.index t (2 : Fin 3) * 768 + 1 * d.val = d.val; omega)
  rw [he]
  refine (BodyValue.pay_at (iblk m c 0 t) (iblk m c 1 t) (iblk m c 2 t) q d).trans ?_
  have hQ : (fun k : Fin 768 => (iblk m c 0 t : Vec Ideal S64x768 .f32) (ix2 q k))
      = fun k : Fin 768 => (V m c main_arg2 : S64x768.Idx → EReal) (ix2 q k) := funext fun k => queries_at m c t q k
  have hC : (fun (s : Fin 4096) (k : Fin 768) => (iblk m c 1 t : Vec Ideal S1x4096x768 .f32) (ix3 (0 : Fin 1) s k))
      = fun (s : Fin 4096) (k : Fin 768) => (V m c main_arg0 : S16x4096x768.Idx → EReal) (ix3 (batch t) s k) :=
    funext fun s => funext fun k => context_at m c t s k
  have hM : (fun s : Fin 4096 => (iblk m c 2 t : Vec Ideal S1x1x4096 .f32) (ix3 (0 : Fin 1) (0 : Fin 1) s))
      = fun s : Fin 4096 => maskOf (V m c main_call0_v0 : S16x1x4096.Idx → EReal) (ix2 (batch t) s) :=
    funext fun s => mask_at m c t s
  have hD : (fun s : Fin 4096 => (iblk m c 1 t : Vec Ideal S1x4096x768 .f32) (ix3 (0 : Fin 1) s d))
      = fun s : Fin 4096 => (V m c main_arg0 : S16x4096x768.Idx → EReal) (ix3 (batch t) s d) := funext fun s => context_at m c t s d
  unfold BodyValue.blockScores
  rw [hQ, hC, hM, hD]
  rfl

/-- An index of the result is in point t's block iff each coordinate is in the block's range on its axis. -/
theorem mem_blk (t : Fin cfg0.N) (i : S16x64x768.Idx) :
    i ∈ ((cfg0.win 3).blk t).view.set ↔ ∀ a : Fin 3, win0_3.index t a * S1x64x768.size a ≤ (i a).val ∧ (i a).val < win0_3.index t a * S1x64x768.size a + S1x64x768.size a := by
  show i ∈ ((View.whole main_v0).slice (win0_3.rect t)).set ↔ _
  rw [View.set_slice_whole, Rect.mem_set_unit]
  exact Iff.rfl

/-- Every entry (b, q, d) of the result lies in the block of grid point b. -/
theorem cover (i : S16x64x768.Idx) : ∃ t : Fin cfg0.N, (cfg0.win 3).flush t = true ∧ i ∈ ((cfg0.win 3).blk t).view.set := by
  have h0 : (i 0).val < 16 := (i 0).isLt
  have h1 : (i 1).val < 64 := (i 1).isLt
  have h2 : (i 2).val < 768 := (i 2).isLt
  have hN : cfg0.N = 16 := N_0
  let t : Fin cfg0.N := ⟨(i 0).val, by rw [hN]; exact h0⟩
  have ht : t.val = (i 0).val := rfl
  obtain ⟨-, -, -, -, -, -, -, -, e0, e1, e2⟩ := idx_facts t
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 64 ≤ (i 1).val ∧ (i 1).val < win0_3.index t (1 : Fin 3) * 64 + 64; omega
  | ⟨2, _⟩ => show win0_3.index t (2 : Fin 3) * 768 ≤ (i 2).val ∧ (i 2).val < win0_3.index t (2 : Fin 3) * 768 + 768; omega

/-- The result array after the run is the pooled array of the argument arrays. -/
theorem final (c : Dev nD) :
    (dats m 0 c).arrAt 3 cfg0.N
      = pooled (m ((c : Thread nD τ).loc main_arg0) : S16x4096x768.Idx → EReal)
          (m ((c : Thread nD τ).loc main_arg1) : S16x4096.Idx → EReal) (m ((c : Thread nD τ).loc main_arg2) : S64x768.Idx → EReal) := by
  rw [(dats m 0 c).arrAt_eq_of_cover 3 (found m c) (fun t _ => flushed_eq m c t) cover]
  show pooled _ _ _ = _
  rw [maskOf_entry, V_main_arg0, V_main_arg2]

/-- The kernel's run: the result at the pooled array of the arguments, the arguments unchanged. -/
theorem run : θ_run defs (onTc (τ := τ) (main (F := Ideal))) ⟨m, fun _ => 0, ρ⟩ fun r => ∀ c : Dev nD,
      r.2.mem ((c : Thread nD τ).loc main_v0)
        = pooled (m ((c : Thread nD τ).loc main_arg0) : S16x4096x768.Idx → EReal)
            (m ((c : Thread nD τ).loc main_arg1) : S16x4096.Idx → EReal) (m ((c : Thread nD τ).loc main_arg2) : S64x768.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.ArrayValue

end
-- ==== Proof.Finite.lean ====
/-
  The precondition says that every entry of the three arguments has absolute value below plus infinity. On the
  extended reals that leaves only the reals: the absolute value of either infinity is plus infinity. Each of the
  predicate's three conjuncts is a reduction by `and` over all of an array's entries of that comparison, so each
  entry passes it.
-/
import proofs.«109145_j56873956933987_2_alg».proof.Pre_finite_inputs
import proofs.«109145_j56873956933987_2_alg».proof.Proof.Gen.Pre_finite_inputs
import Idealize.ShloMosaic.PureOps.Ideal
import Idealize.ShloMosaic.Lib.ReduceAll
import Idealize.ShloMosaic.Lib.ValueIdx

noncomputable section

namespace Cert.Pre_finite_inputs.Finite

open Idealize.ShloMosaic Cert.Pre_finite_inputs Cert.Pre_finite_inputs.Gen

instance : Subsingleton S_.Idx := ⟨fun a b => funext fun d => d.elim0⟩

/-- The word of plus infinity denotes the top of the extended reals. -/
theorem ofBits_pos_inf : Ideal.ofBits .f32 0x7F800000#32 = ⊤ := by simp [Ideal.ofBits, Ideal.ieee]

/-- An extended real whose absolute value compares below plus infinity is a real. -/
theorem real_of_abs_lt (x : EReal)
    (h : FloatOps.cmpf (F := Ideal) (φ := .f32) .olt (FloatOps.hostAbsf x) (FloatOps.ofBits .f32 0x7F800000#32) = 1#1) :
    ∃ r : ℝ, x = r := by
  have h' : BitVec.ofBool (decide (max x (-x) < Ideal.ofBits .f32 0x7F800000#32)) = 1#1 := h
  rw [ofBits_pos_inf] at h'
  induction x using EReal.rec with
  | bot => exact absurd h' (by simp)
  | top => exact absurd h' (by simp)
  | coe r => exact ⟨r, rfl⟩

/-- Under the precondition every entry of every argument is a real. -/
theorem reals_of_pre (x0 : FVec Ideal S16x4096x768 .f32) (x1 : FVec Ideal S16x4096 .f32) (x2 : FVec Ideal S64x768 .f32)
    (h : fn (F := Ideal) x0 x1 x2 = fun _ => 1#1) :
    (∀ i, ∃ r : ℝ, x0 i = r) ∧ (∀ i, ∃ r : ℝ, x1 i = r) ∧ (∀ i, ∃ r : ℝ, x2 i = r) := by
  have h' := congrFun h ValueIdx.ix0
  dsimp only [fn, andi] at h'
  obtain ⟨h38, h12⟩ := IntOp.andi_eq_one.1 h'
  obtain ⟨h3, h7⟩ := IntOp.andi_eq_one.1 h38
  exact ⟨fun i => real_of_abs_lt _ (Host.reduce_andi_all _ _ _ _ _ h3 i),
    fun i => real_of_abs_lt _ (Host.reduce_andi_all _ _ _ _ _ h7 i),
    fun i => real_of_abs_lt _ (Host.reduce_andi_all _ _ _ _ _ h12 i)⟩

end Cert.Pre_finite_inputs.Finite

end
-- ==== Proof.lean ====
/-
  Attention pooling by learned queries: for each batch b and query row q, the masked scores q · c(b, s) + (1 - mask(b, s)) · (-1e5)
  over the sequence are turned into softmax weights (the exponential of each score less the row's maximum, over the
  row's total), and the context's rows are averaged with those weights. The kernel divides the weighted sum of a
  context column by the total weight; the reference divides every weight first and then sums. Over the extended
  reals the two orders agree once every input entry is a real number, which is what the precondition states: the
  scores are then real, the maximum of a row is real, the weights are positive reals, and division by their positive
  real total is multiplication by a real, which distributes over a finite sum of reals.

  The kernel's result array (each grid point's block read entry by entry, the blocks covering the array) and the
  reference's result (its operations read at an entry) are both the one array `Cert.Pool.pooled` of the arguments.
  The three programs' runs and unchanged arguments come from the generated modules; the idealized kernel is the
  kernel's own text read over the extended reals, so nothing is owed for the passage between them.
-/
import proofs.«109145_j56873956933987_2_alg».proof.Defs
import proofs.«109145_j56873956933987_2_alg».proof.Proof.Gen.Kernel
import proofs.«109145_j56873956933987_2_alg».proof.Proof.Gen.Kernel.Skeleton
import proofs.«109145_j56873956933987_2_alg».proof.Proof.Gen.Kernel.Launch
import proofs.«109145_j56873956933987_2_alg».proof.Proof.Gen.Kernel.Points
import proofs.«109145_j56873956933987_2_alg».proof.Proof.Gen.Kernel.Frame
import proofs.«109145_j56873956933987_2_alg».proof.Proof.Gen.KernelIdeal
import proofs.«109145_j56873956933987_2_alg».proof.Proof.Gen.KernelIdeal.Skeleton
import proofs.«109145_j56873956933987_2_alg».proof.Proof.Gen.KernelIdeal.Launch
import proofs.«109145_j56873956933987_2_alg».proof.Proof.Gen.KernelIdeal.Points
import proofs.«109145_j56873956933987_2_alg».proof.Proof.Gen.KernelIdeal.Frame
import proofs.«109145_j56873956933987_2_alg».proof.Proof.Gen.ReferenceIdeal
import proofs.«109145_j56873956933987_2_alg».proof.Proof.Gen.Pre_finite_inputs
import proofs.«109145_j56873956933987_2_alg».proof.Proof.Gen.KernelIdeal.Value
import proofs.«109145_j56873956933987_2_alg».proof.Proof.Gen.ReferenceIdeal.Run
import proofs.«109145_j56873956933987_2_alg».proof.Proof.Gen.ReferenceIdeal.Read
import proofs.«109145_j56873956933987_2_alg».proof.Proof.PoolLaw
import proofs.«109145_j56873956933987_2_alg».proof.Proof.RefPool
import proofs.«109145_j56873956933987_2_alg».proof.Proof.KernelPool
import proofs.«109145_j56873956933987_2_alg».proof.Proof.KernelRun
import proofs.«109145_j56873956933987_2_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments, all real by the precondition, both programs end with the pooled array
    of the arguments: the kernel by its blocks, the reference by its operations read at an entry and the law that
    joins the two orders of normalising. -/
theorem algebraic : Cert.algebraic_KernelIdeal_ReferenceIdeal := by
  intro m ρ m' ρ' hpre hagree
  refine ⟨fun c => Cert.Pool.pooled (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨r0, r1, r2⟩ := Cert.Pre_finite_inputs.Finite.reals_of_pre _ _ _ (hpre c)
  rw [Cert.ReferenceIdeal.Read.val_main_v20_eq, (hagree c).1, (hagree c).2.1, (hagree c).2.2]
  exact Cert.ReferenceIdeal.RefValue.result_eq _ _ _ r0 r1 r2

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
